-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x256 : Shape := ⟨2, ![524288, 256]⟩
abbrev S524288 : Shape := ⟨1, ![524288]⟩
abbrev S_ : Shape := ⟨0, ![]⟩

class Facts : Prop where
  bcast_S_S524288x256 : S_.BroadcastsInDim S524288x256 (![] : Fin 0 → Fin S524288x256.rank)
  reducesTo_S524288x256_S_d0_1 : S524288x256.ReducesTo [0, 1] S_
  h_S_ : 0 < S_.numel

variable [Facts]

def fn {F : FTy → Type} [FloatOps F] (main_arg0 : FVec F S524288x256 .f32) (main_arg1 : IVec S524288 32) : IVec S_ 1 :=
  let main_v0 : FVec F S524288x256 .f32 := Host.absf main_arg0
  let main_cst : FVec F S_ .f32 := constant S_ .f32 0x7F800000#32
  let main_v1 : FVec F S524288x256 .f32 := broadcastInDim S524288x256 ![] bcast_S_S524288x256 main_cst
  let main_v2 : IVec S524288x256 1 := cmpf .olt main_v0 main_v1
  let main_c : IVec S_ 1 := constantI S_ 1 1#1
  let main_v3 : IVec S_ 1 := (fun x v => Host.reduce IntOp.andi x v reducesTo_S524288x256_S_d0_1 h_S_) main_v2 main_c
  main_v3
-- ==== Kernel.lean ====
abbrev S524288x256 : Shape := ⟨2, ![524288, 256]⟩
abbrev S524288 : Shape := ⟨1, ![524288]⟩
abbrev S524288x1 : Shape := ⟨2, ![524288, 1]⟩
abbrev S1x1 : Shape := ⟨2, ![1, 1]⟩
abbrev S_ : Shape := ⟨0, ![]⟩
abbrev S4096x256 : Shape := ⟨2, ![4096, 256]⟩
abbrev S4096x1 : Shape := ⟨2, ![4096, 1]⟩
abbrev S4096 : Shape := ⟨1, ![4096]⟩
abbrev S1 : Shape := ⟨1, ![1]⟩

abbrev nBuf : Space → Nat
  | .hbm => 5
  | .vmem => 6
  | .smem => 0
  | _ => 0

abbrev bufTy : (tb : Table) → Fin (tcTables nBuf tb) → BufTy
  | .hbm, ⟨0, _⟩ => ⟨S524288x256, .f32⟩
  | .hbm, ⟨1, _⟩ => ⟨S524288, .i32⟩
  | .hbm, ⟨2, _⟩ => ⟨S524288x1, .i32⟩
  | .hbm, ⟨3, _⟩ => ⟨S1x1, .f32⟩
  | .hbm, ⟨4, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S1x1, .f32⟩
  | .local _ .vmem, ⟨5, _⟩ => ⟨S1x1, .f32⟩
  | _, _ => ⟨S524288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S524288_S524288x1 : S524288.ShapeCasts S524288x1
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x256_d1_w32 : S4096x256.Iotas .tc 32 [1]
  broadcasts_S4096x1_S4096x256 : S4096x1.Broadcasts S4096x256
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S524288x256.size a
  hwx0_0 : ∀ i : grid0.Coords, EltTy.bits .f32 = 32 ∨ (Rect.block (s := S524288x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S524288x1.size a
  hwx0_1 : ∀ i : grid0.Coords, EltTy.bits .i32 = 32 ∨ (Rect.block (s := S524288x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S524288x256 : Shape := ⟨2, ![524288, 256]⟩
abbrev S524288 : Shape := ⟨1, ![524288]⟩
abbrev S256 : Shape := ⟨1, ![256]⟩
abbrev S524288x1 : Shape := ⟨2, ![524288, 1]⟩
abbrev S1x256 : Shape := ⟨2, ![1, 256]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S524288x256, .f32⟩
  | .hbm, ⟨1, _⟩ => ⟨S524288, .i32⟩
  | .hbm, ⟨2, _⟩ => ⟨S256, .i32⟩
  | .hbm, ⟨3, _⟩ => ⟨S524288x1, .i32⟩
  | .hbm, ⟨4, _⟩ => ⟨S1x256, .i32⟩
  | .hbm, ⟨5, _⟩ => ⟨S524288x256, .i32⟩
  | .hbm, ⟨6, _⟩ => ⟨S524288x256, .i32⟩
  | .hbm, ⟨7, _⟩ => ⟨S524288x256, .i1⟩
  | .hbm, ⟨8, _⟩ => ⟨S1x256, .i32⟩
  | .hbm, ⟨9, _⟩ => ⟨S524288x256, .i32⟩
  | .hbm, ⟨10, _⟩ => ⟨S524288x256, .i32⟩
  | .hbm, ⟨11, _⟩ => ⟨S524288x256, .i1⟩
  | .hbm, ⟨12, _⟩ => ⟨S_, .f32⟩
  | .hbm, ⟨13, _⟩ => ⟨S524288x256, .f32⟩
  | .hbm, ⟨14, _⟩ => ⟨S524288x256, .f32⟩
  | .hbm, ⟨15, _⟩ => ⟨S_, .f32⟩
  | .hbm, ⟨16, _⟩ => ⟨S_, .f32⟩
  | .hbm, ⟨17, _⟩ => ⟨S524288x256, .f32⟩
  | .hbm, ⟨18, _⟩ => ⟨S524288x256, .f32⟩
  | .hbm, ⟨19, _⟩ => ⟨S_, .f32⟩
  | .hbm, ⟨20, _⟩ => ⟨S524288, .f32⟩
  | .hbm, ⟨21, _⟩ => ⟨S524288x256, .f32⟩
  | .hbm, ⟨22, _⟩ => ⟨S_, .f32⟩
  | .hbm, ⟨23, _⟩ => ⟨S524288x256, .f32⟩
  | .hbm, ⟨24, _⟩ => ⟨S524288x256, .f32⟩
  | .hbm, ⟨25, _⟩ => ⟨S_, .f32⟩
  | .hbm, ⟨26, _⟩ => ⟨S_, .f32⟩
  | .hbm, ⟨27, _⟩ => ⟨S524288x256, .f32⟩
  | .hbm, ⟨28, _⟩ => ⟨S524288x256, .f32⟩
  | .hbm, ⟨29, _⟩ => ⟨S_, .f32⟩
  | .hbm, ⟨30, _⟩ => ⟨S524288, .f32⟩
  | .hbm, ⟨31, _⟩ => ⟨S_, .i32⟩
  | .hbm, ⟨32, _⟩ => ⟨S524288, .i32⟩
  | .hbm, ⟨33, _⟩ => ⟨S524288, .i1⟩
  | .hbm, ⟨34, _⟩ => ⟨S_, .f32⟩
  | .hbm, ⟨35, _⟩ => ⟨S_, .f32⟩
  | .hbm, ⟨36, _⟩ => ⟨S524288, .f32⟩
  | .hbm, ⟨37, _⟩ => ⟨S524288, .f32⟩
  | .hbm, ⟨38, _⟩ => ⟨S524288, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_call2_v0 : Ref sig .tc := ⟨.hbm, 35, rfl⟩
abbrev main_call2_v1 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  bcast_S524288_S524288x1_0 : S524288.BroadcastsInDim S524288x1 (![0] : Fin 1 → Fin S524288x1.rank)
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S524288x1_S524288x256_0_1 : S524288x1.BroadcastsInDim S524288x256 (![0, 1] : Fin 2 → Fin S524288x256.rank)
  bcast_S_S524288x256 : S_.BroadcastsInDim S524288x256 (![] : Fin 0 → Fin S524288x256.rank)
  reducesTo_S524288x256_S524288_d1 : S524288x256.ReducesTo [1] S524288
  h_S_ : 0 < S_.numel
  bcast_S_S524288 : S_.BroadcastsInDim S524288 (![] : Fin 0 → Fin S524288.rank)
  reducesTo_S524288_S_d0 : S524288.ReducesTo [0] S_

variable [Facts₀]

class Facts : Prop extends Facts₀ where

variable [Facts]
-- ==== Proof.LibNotLess.lean ====
/-
  The negation of a signed comparison, as one-bit words: flipping the bit of "a <ₛ b" gives the bit of "a ≥ₛ b", at
  every pair of 32-bit words. (A kernel that negates a mask it has already computed, against a reference that computes
  the opposite comparison.)
-/
import Idealize.ShloMosaic.PureOps.Ideal

namespace Idealize.ShloMosaic.IntOp

/-- The bit of `a <ₛ b` exclusive-or'd with one is the bit of `a ≥ₛ b`. -/
theorem xori_cmpi_slt_one (a b : BitVec 32) : IntOp.xori (IntOp.cmpi .slt a b) 1#1 = IntOp.cmpi .sge a b := by
  unfold IntOp.xori IntOp.cmpi
  by_cases h : a.toInt < b.toInt
  · have h' : ¬ b.toInt ≤ a.toInt := not_le.mpr h
    simp [BitVec.slt, BitVec.sle, h, h']
  · have h' : b.toInt ≤ a.toInt := not_lt.mp h
    simp [BitVec.slt, BitVec.sle, h, h']

end Idealize.ShloMosaic.IntOp
-- ==== Proof.OrdinalLoss.lean ====
/-
  The ordinal-regression loss as one function of the two argument arrays, over the extended reals.

  For a row with target word `t` and entries `x j` (j < 256) the row's term is
    (0 + Σ_j [j <ₛ t] · max (x j) (-10))  +  [t <ₛ 255] · (0 + Σ_j [j ≥ₛ t] · max (-(x j)) (-10)),
  the brackets being selections against zero and the comparisons signed comparisons of 32-bit words, and the loss is
  zero plus the sum of the rows' terms over all 524288 rows, divided by 524288.

  Three laws join the two programs' spellings of it, none of which needs a finite entry:
    · the negation of "a <ₛ b" as a one-bit word is "a ≥ₛ b";
    · 0 - x = -x on the extended reals;
    · the sum over 524288 = 128 · 4096 rows is the sum over 128 tiles of the sums over the 4096 rows of each tile, row
      `4096 · t + r` being row `r` of tile `t` (addition of extended reals is commutative and associative).
-/
import Idealize.ShloMosaic.PureOps.Ideal
import Idealize.ShloMosaic.PureOps.Ideal.Laws
import Idealize.ShloMosaic.Lib.ValueIdx
import proofs.«179542_j69655779607154_1_alg».proof.Proof.LibNotLess

noncomputable section

namespace Cert.OrdinalLoss

open Idealize.ShloMosaic

/-- The clamp's floor, the f32 word of -10. -/
abbrev floorW : EReal := Ideal.ofBits .f32 0xC1200000#32
/-- The f32 zero word. -/
abbrev zeroW : EReal := Ideal.ofBits .f32 0x00000000#32
/-- The f32 word of 524288. -/
abbrev rowsW : EReal := Ideal.ofBits .f32 0x49000000#32

/-- Column `j`'s contribution below the target: the clamped entry where `j <ₛ t`, zero elsewhere. -/
def below (t : BitVec 32) (j : Fin 256) (x : EReal) : EReal :=
  Scalar.select (IntOp.cmpi .slt (BitVec.ofNat 32 j.val) t) (max x floorW) zeroW

/-- Column `j`'s contribution at or above the target: the clamped negated entry where `j ≥ₛ t`, zero elsewhere. -/
def atOrAbove (t : BitVec 32) (j : Fin 256) (x : EReal) : EReal :=
  Scalar.select (IntOp.cmpi .sge (BitVec.ofNat 32 j.val) t) (max (-x) floorW) zeroW

/-- One row's term. -/
def rowTerm (t : BitVec 32) (x : Fin 256 → EReal) : EReal :=
  (zeroW + ∑ j : Fin 256, below t j (x j))
    + Scalar.select (IntOp.cmpi .slt t 255#32) (zeroW + ∑ j : Fin 256, atOrAbove t j (x j)) zeroW

/-- The loss: the mean of the rows' terms. -/
def loss (t : Fin 524288 → BitVec 32) (x : Fin 524288 → Fin 256 → EReal) : EReal :=
  Ideal.div (zeroW + ∑ i : Fin 524288, rowTerm (t i) (x i)) rowsW

/-! ## The three laws -/

/-- The negation of a signed "less than", as a one-bit word, is the signed "greater or equal". -/
theorem xori_slt_one (a b : BitVec 32) : IntOp.xori (IntOp.cmpi .slt a b) 1#1 = IntOp.cmpi .sge a b :=
  IntOp.xori_cmpi_slt_one a b

/-- Zero less `x` is `-x`, at every extended real. -/
theorem zeroW_sub (x : EReal) : zeroW - x = -x := by
  rw [show zeroW = 0 from Ideal.ofBits_zero_f32, sub_eq_add_neg, zero_add]

/-- Zero plus `x` is `x`. -/
theorem zeroW_add (x : EReal) : zeroW + x = x := by
  rw [show zeroW = 0 from Ideal.ofBits_zero_f32, zero_add]

/-- Row `r` of tile `t`. -/
def rowOf (t : Fin 128) (r : Fin 4096) : Fin 524288 :=
  ⟨4096 * t.val + r.val, by have := t.isLt; have := r.isLt; omega⟩

/-- The rows as tiles: a bijection between (tile, row of the tile) and the row. -/
def tiles : Fin 128 × Fin 4096 ≃ Fin 524288 where
  toFun p := rowOf p.1 p.2
  invFun i := (⟨i.val / 4096, by have := i.isLt; omega⟩, ⟨i.val % 4096, Nat.mod_lt _ (by decide)⟩)
  left_inv p := by
    obtain ⟨t, r⟩ := p
    have := r.isLt
    apply Prod.ext <;> apply Fin.ext <;> simp only [rowOf] <;> omega
  right_inv i := by
    apply Fin.ext; simp only [rowOf]; omega

/-- A sum over the rows is the sum over the tiles of the sums over each tile's rows. -/
theorem sum_rows_eq_sum_tiles {M : Type*} [AddCommMonoid M] (f : Fin 524288 → M) :
    ∑ i : Fin 524288, f i = ∑ t : Fin 128, ∑ r : Fin 4096, f (rowOf t r) := by
  rw [← Fintype.sum_prod_type' (fun t r => f (rowOf t r))]
  exact (Fintype.sum_equiv tiles (fun p => f (rowOf p.1 p.2)) f (fun _ => rfl)).symm

/-- One tile's share of the loss's sum: the sum of its rows' terms (zero past the last tile). -/
def tileTerm (t : Fin 524288 → BitVec 32) (x : Fin 524288 → Fin 256 → EReal) (n : ℕ) : EReal :=
  if h : n < 128 then ∑ r : Fin 4096, rowTerm (t (rowOf ⟨n, h⟩ r)) (x (rowOf ⟨n, h⟩ r)) else 0

/-- The tiles' shares, all 128 of them, add up to the sum over the rows. -/
theorem sum_tileTerm (t : Fin 524288 → BitVec 32) (x : Fin 524288 → Fin 256 → EReal) :
    ∑ n ∈ Finset.range 128, tileTerm t x n = ∑ i : Fin 524288, rowTerm (t i) (x i) := by
  rw [sum_rows_eq_sum_tiles, Finset.sum_range]
  refine Finset.sum_congr rfl fun n _ => ?_
  unfold tileTerm
  rw [dif_pos n.isLt]

end Cert.OrdinalLoss

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.BlockSum.lean ====
/-
  What one grid point adds. The body's accumulating store writes, into the one-entry scratch, the entry it carried
  plus the sum over the tile's 4096 rows of the row's term: per row the lane sum of the clamped entries below the
  target, plus — where the target is below 255 — the lane sum of the clamped negated entries at or above it. The
  body spells "at or above" as the negation of "below" and the negated entry as zero less the entry; both are the
  specification's forms at every word and every extended real.
-/
import proofs.«179542_j69655779607154_1_alg».proof.Proof.Gen.KernelIdeal.Skeleton
import proofs.«179542_j69655779607154_1_alg».proof.Proof.OrdinalLoss
import proofs.«179542_j69655779607154_1_alg».proof.Proof.LibKeepdims
import Idealize.ShloMosaic.PureOps.Ideal.Laws
import Idealize.ShloMosaic.Lib.Pipeline.Value
import Idealize.ShloMosaic.Lib.ValueIdx

noncomputable section

namespace Cert.KernelIdeal.BlockSum

open Idealize.ShloMosaic Idealize.ShloMosaic.ValueIdx Cert.KernelIdeal Cert.KernelIdeal.Gen Cert.OrdinalLoss

/-- A lane sum of a tile, at row `r`: the sum over the 256 columns. -/
theorem lane_sum (v : FVec Ideal S4096x256 .f32) (r : Fin 4096) :
    multiReduction .add [1] S4096 v 0x00000000#32 Facts₀.reduces_S4096x256_S4096 (.inl rfl) rfl (ix1 r)
      = ∑ k : Fin 256, v (ix2 r k) :=
  (Ideal.multiReduction_add_single v _ Facts₀.reduces_S4096x256_S4096 (.inl rfl) rfl (ix1 r)).trans
    (Finset.sum_congr rfl fun k _ => congrArg v (funext fun a => Fin.ext (by match a with | ⟨0, _⟩ => rfl | ⟨1, _⟩ => rfl)))

/-- The sum of a tile's column of row values, at its one entry: the sum over the 4096 rows. -/
theorem row_sum (v : FVec Ideal S4096x1 .f32) :
    multiReduction .add [0] S1 v 0x00000000#32 Facts₀.reduces_S4096x1_S1 (.inl rfl) rfl (ix1 (0 : Fin 1))
      = ∑ r : Fin 4096, v (ix2 r (0 : Fin 1)) :=
  (Ideal.multiReduction_add_single v _ Facts₀.reduces_S4096x1_S1 (.inl rfl) rfl (ix1 (0 : Fin 1))).trans
    (Finset.sum_congr rfl fun k _ => congrArg v (funext fun a => Fin.ext (by match a with | ⟨0, _⟩ => rfl | ⟨1, _⟩ => rfl)))

/-- The column counter at `(r, k)` is the word of `k`. -/
theorem col_apply (r : Fin 4096) (k : Fin 256) :
    iota .tc S4096x256 32 [1] Facts₀.iota_S4096x256_d1_w32 (ix2 r k) = BitVec.ofNat 32 k.val := by
  show BitVec.ofNat 32 (0 * 256 + k.val) = _
  rw [Nat.zero_mul, Nat.zero_add]

/-- The targets' column spread along the lanes reads, at `(r, k)`, row `r`'s target. -/
theorem target_apply (x1 : Vec Ideal S4096x1 .i32) (r : Fin 4096) (k : Fin 256) :
    broadcastTo S4096x256 (shapeCast S4096x1 x1 Facts₀.shapeCasts_S4096x1_S4096x1) Facts₀.broadcasts_S4096x1_S4096x256 (ix2 r k)
      = x1 (ix2 r (0 : Fin 1)) :=
  (broadcastTo_a1_ab_apply _ _ r k).trans (congrFun (shapeCast_self x1 _) _)

/-- Column `k`'s contribution below the target, as the body selects it. -/
theorem below_apply (x0 : Vec Ideal S4096x256 .f32) (x1 : Vec Ideal S4096x1 .i32) (r : Fin 4096) (k : Fin 256) :
    select (cmpi .slt (iota .tc S4096x256 32 [1] Facts₀.iota_S4096x256_d1_w32)
        (broadcastTo S4096x256 (shapeCast S4096x1 x1 Facts₀.shapeCasts_S4096x1_S4096x1) Facts₀.broadcasts_S4096x1_S4096x256))
      (maximumf x0 (broadcast S4096x256 (Scalar.ofBits (F := Ideal) .f32 0xC1200000#32)))
      (broadcast S4096x256 (Scalar.ofBits (F := Ideal) .f32 0x00000000#32)) (ix2 r k)
      = below (x1 (ix2 r (0 : Fin 1))) k (x0 (ix2 r k)) := by
  unfold below
  rw [← col_apply r k, ← target_apply x1 r k]
  rfl

/-- Column `k`'s contribution at or above the target, as the body selects it: the body negates the "below" bit and
    takes zero less the entry. -/
theorem atOrAbove_apply (x0 : Vec Ideal S4096x256 .f32) (x1 : Vec Ideal S4096x1 .i32) (r : Fin 4096) (k : Fin 256) :
    select (xori (cmpi .slt (iota .tc S4096x256 32 [1] Facts₀.iota_S4096x256_d1_w32)
        (broadcastTo S4096x256 (shapeCast S4096x1 x1 Facts₀.shapeCasts_S4096x1_S4096x1) Facts₀.broadcasts_S4096x1_S4096x256))
          (constantI S4096x256 1 1#1))
      (maximumf (subf (broadcast S4096x256 (Scalar.ofBits (F := Ideal) .f32 0x00000000#32)) x0)
        (broadcast S4096x256 (Scalar.ofBits (F := Ideal) .f32 0xC1200000#32)))
      (broadcast S4096x256 (Scalar.ofBits (F := Ideal) .f32 0x00000000#32)) (ix2 r k)
      = atOrAbove (x1 (ix2 r (0 : Fin 1))) k (x0 (ix2 r k)) := by
  unfold atOrAbove
  rw [← xori_slt_one, ← zeroW_sub, ← col_apply r k, ← target_apply x1 r k]
  rfl

/-- The accumulating store's value at its one entry: the carried entry plus the sum of the tile's rows' terms. -/
theorem pay3_apply (x0 : Vec Ideal S4096x256 .f32) (x1 : Vec Ideal S4096x1 .i32) (acc : Vec Ideal S1x1 .f32) :
    k0_pay3 (F := Ideal) x0 x1 acc (ix2 (0 : Fin 1) (0 : Fin 1))
      = acc (ix2 (0 : Fin 1) (0 : Fin 1))
          + ∑ r : Fin 4096, rowTerm (x1 (ix2 r (0 : Fin 1))) (fun j => x0 (ix2 r j)) := by
  unfold k0_pay3
  refine (congrFun (shapeCast_self _ _) _).trans ?_
  refine (addf_apply _ _ _).trans ?_
  refine congrArg (acc (ix2 (0 : Fin 1) (0 : Fin 1)) + ·) ?_
  refine (shapeCast_a_a1_apply _ _ (0 : Fin 1) (0 : Fin 1)).trans ?_
  refine (row_sum _).trans ?_
  refine Finset.sum_congr rfl fun r _ => ?_
  unfold rowTerm
  refine (addf_apply _ _ _).trans ?_
  refine congrArg₂ (· + ·) ?_ ?_
  · exact (shapeCast_a_a1_apply _ _ r (0 : Fin 1)).trans ((lane_sum _ r).trans
      ((Finset.sum_congr rfl fun k _ => below_apply x0 x1 r k).trans (zeroW_add _).symm))
  · refine congrArg₂ (fun b v => Scalar.select b v zeroW)
      (congrArg (IntOp.cmpi .slt · 255#32) (congrFun (shapeCast_self x1 _) _)) ?_
    exact (shapeCast_a_a1_apply _ _ r (0 : Fin 1)).trans ((lane_sum _ r).trans
      ((Finset.sum_congr rfl fun k _ => atOrAbove_apply x0 x1 r k).trans (zeroW_add _).symm))

/-- The zeroing store's value at its one entry: the zero word. -/
theorem pay2_apply : k0_pay2 (F := Ideal) (ix2 (0 : Fin 1) (0 : Fin 1)) = zeroW := by
  unfold k0_pay2
  exact congrFun (shapeCast_self _ _) _

/-- The output store's value at its one entry: the scratch's entry divided by the row count. -/
theorem pay1_apply (v : Vec Ideal S1x1 .f32) :
    k0_pay1 (F := Ideal) v (ix2 (0 : Fin 1) (0 : Fin 1)) = Ideal.div (v (ix2 (0 : Fin 1) (0 : Fin 1))) rowsW := by
  unfold k0_pay1
  rfl

end Cert.KernelIdeal.BlockSum

end
-- ==== Proof.Cases.lean ====
/-
  What each of the body's two control cases leaves behind, as values. At the grid's first point the body zeroes the
  one-entry scratch, adds the tile's sum to it and writes the scratch divided by the row count to the output's block;
  at every later point it does the same over the scratch as the point before left it. The run of each case found the
  stores; here each store's value is named: the accumulating store's value over the tile's two blocks and the carried
  scratch, and the output store's value over that.
-/
import proofs.«179542_j69655779607154_1_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem Cert.KernelIdeal Cert.KernelIdeal.Gen
open Idealize.ShloMosaic.Pipeline (Dat)

variable {F : FTy → Type} [FloatOps F]

/-- The stores and loads of the body all go through the zero offset of a whole buffer. -/
theorem hz : (![0, 0] : Fin 2 → Nat) = fun _ => 0 := funext fun a => by fin_cases a <;> rfl

/-- A later point: the scratch ends at the accumulating store's value over what the point before left, `xs0`. -/
theorem scratch_later (c : Dev nD) (i : grid0.Coords) (a1 : Memref sig .tc .vmem S4096x256 .f32) (h1 : a1.IsWhole)
    (a2 : Memref sig .tc .vmem S4096x1 .i32) (h2 : a2.IsWhole) (a3 : Memref sig .tc .vmem S1x1 .f32) (h3 : a3.IsWhole)
    (a4 : Memref sig .tc .vmem S1x1 .f32) (h4 : a4.IsWhole) (hc : ¬cond0_0 i)
    (x0 : Vec F S4096x256 .f32) (x1 : Vec F S4096x1 .i32) (xs0 : Vec F S1x1 .f32) :
    sout0_B_0 c i a1 h1 a2 h2 a3 h3 a4 h4 hc x0 x1 xs0 = k0_pay3 x0 x1 xs0 := by
  unfold sout0_B_0
  rw [View.read_writes_eq_canon _ _ _ (scover0_B_0 c i a1 h1 a2 h2 a3 h3 a4 h4 hc x0 x1 xs0)]
  unfold kernelRun0_B
  dsimp only
  sl_unfold_words
  rw [View.canon_unit_zero hz]
  simp only [View.readAt_eq_ld, h1.read_unread, h2.read_unread, h4.read_unread, View.ld_unit_zero (S := S4096x256) hz,
    View.ld_unit_zero (S := S4096x1) hz, View.ld_unit_zero (S := S1x1) hz]

/-- A later point: the output's block ends at the output store's value over the scratch just written. -/
theorem out_later (c : Dev nD) (i : grid0.Coords) (a1 : Memref sig .tc .vmem S4096x256 .f32) (h1 : a1.IsWhole)
    (a2 : Memref sig .tc .vmem S4096x1 .i32) (h2 : a2.IsWhole) (a3 : Memref sig .tc .vmem S1x1 .f32) (h3 : a3.IsWhole)
    (a4 : Memref sig .tc .vmem S1x1 .f32) (h4 : a4.IsWhole) (hc : ¬cond0_0 i)
    (x0 : Vec F S4096x256 .f32) (x1 : Vec F S4096x1 .i32) (xs0 : Vec F S1x1 .f32) :
    out0_B_2 c i a1 h1 a2 h2 a3 h3 a4 h4 hc x0 x1 xs0 = k0_pay1 (k0_pay3 x0 x1 xs0) := by
  unfold out0_B_2
  rw [View.read_writes_eq_canon _ _ _ (cover0_B_2 c i a1 h1 a2 h2 a3 h3 a4 h4 hc x0 x1 xs0)]
  unfold kernelRun0_B
  dsimp only
  sl_unfold_words
  rw [View.canon_unit_zero hz, View.readCov_cons_toLoadRect]
  simp only [View.readAt_eq_ld, h1.read_unread, h2.read_unread, h4.read_unread, View.ld_unit_zero (S := S4096x256) hz,
    View.ld_unit_zero (S := S4096x1) hz, View.ld_unit_zero (S := S1x1) hz]

/-- The first point: the scratch ends at the accumulating store's value over the zero the body has just stored. -/
theorem scratch_first (c : Dev nD) (i : grid0.Coords) (a1 : Memref sig .tc .vmem S4096x256 .f32) (h1 : a1.IsWhole)
    (a2 : Memref sig .tc .vmem S4096x1 .i32) (h2 : a2.IsWhole) (a3 : Memref sig .tc .vmem S1x1 .f32) (h3 : a3.IsWhole)
    (a4 : Memref sig .tc .vmem S1x1 .f32) (h4 : a4.IsWhole) (hc : cond0_0 i)
    (x0 : Vec F S4096x256 .f32) (x1 : Vec F S4096x1 .i32) :
    sout0_A_0 c i a1 h1 a2 h2 a3 h3 a4 h4 hc x0 x1 = k0_pay3 x0 x1 (k0_pay2 (F := F)) := by
  unfold sout0_A_0
  rw [View.read_writes_eq_canon _ _ _ (scover0_A_0 c i a1 h1 a2 h2 a3 h3 a4 h4 hc x0 x1)]
  unfold kernelRun0_A
  dsimp only
  sl_unfold_words
  rw [View.canon_cons_unit_zero (S := S1x1) hz, View.readCov_cons_toLoadRect]
  simp only [View.readAt_eq_ld, h1.read_unread, h2.read_unread, View.ld_unit_zero (S := S4096x256) hz,
    View.ld_unit_zero (S := S4096x1) hz]

/-- The first point: the output's block ends at the output store's value over the scratch just written. -/
theorem out_first (c : Dev nD) (i : grid0.Coords) (a1 : Memref sig .tc .vmem S4096x256 .f32) (h1 : a1.IsWhole)
    (a2 : Memref sig .tc .vmem S4096x1 .i32) (h2 : a2.IsWhole) (a3 : Memref sig .tc .vmem S1x1 .f32) (h3 : a3.IsWhole)
    (a4 : Memref sig .tc .vmem S1x1 .f32) (h4 : a4.IsWhole) (hc : cond0_0 i)
    (x0 : Vec F S4096x256 .f32) (x1 : Vec F S4096x1 .i32) :
    out0_A_2 c i a1 h1 a2 h2 a3 h3 a4 h4 hc x0 x1 = k0_pay1 (k0_pay3 x0 x1 (k0_pay2 (F := F))) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz, View.readCov_cons_toLoadRect, View.readCov_cons_toLoadRect]
  simp only [View.readAt_eq_ld, h1.read_unread, h2.read_unread, View.ld_unit_zero (S := S4096x256) hz,
    View.ld_unit_zero (S := S4096x1) hz]

variable (m : (ℓ : Loc nD τ sig) → Buf (Elt F) ℓ)

/-- After the first point: the scratch holds the accumulating store's value over zero and the point's two blocks,
    the output's block the output store's value over that. -/
theorem first_point (c : Dev nD) (t : Fin cfg0.N) (h0 : t.val % 128 = 0) :
    outsAt0 m c t.val t.isLt
      = (k0_pay1 (k0_pay3 (iblk m c 0 t) (iblk m c 1 t) (k0_pay2 (F := F))),
          k0_pay3 (iblk m c 0 t) (iblk m c 1 t) (k0_pay2 (F := F))) :=
  (outsAt0_A m c t h0).trans (Prod.ext
    (out_first (F := F) c (grid0.coords t) (ms0_0 t) (hs0_0 t) (ms0_1 t) (hs0_1 t) (ms0_2 t) (hs0_2 t) scM0_0 (Memref.isWhole_whole _) ((hcond0_0 t).mpr h0) (iblk m c 0 t) (iblk m c 1 t))
    (scratch_first (F := F) c (grid0.coords t) (ms0_0 t) (hs0_0 t) (ms0_1 t) (hs0_1 t) (ms0_2 t) (hs0_2 t) scM0_0 (Memref.isWhole_whole _) ((hcond0_0 t).mpr h0) (iblk m c 0 t) (iblk m c 1 t)))

/-- After a later point: the same over the scratch as the point before left it. -/
theorem later_point (c : Dev nD) (t : Fin cfg0.N) (h0 : ¬t.val % 128 = 0) :
    outsAt0 m c t.val t.isLt
      = (k0_pay1 (k0_pay3 (iblk m c 0 t) (iblk m c 1 t)
            (outsAt0 m c (t.val - 1) (Nat.lt_of_le_of_lt (Nat.sub_le _ _) t.isLt)).2),
          k0_pay3 (iblk m c 0 t) (iblk m c 1 t)
            (outsAt0 m c (t.val - 1) (Nat.lt_of_le_of_lt (Nat.sub_le _ _) t.isLt)).2) :=
  (outsAt0_B m c t h0).trans (Prod.ext
    (out_later (F := F) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2)
    (scratch_later (F := F) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2))

end Cert.KernelIdeal.Cases

end
-- ==== Proof.Blocks.lean ====
/-
  What the two input windows' blocks are, entry by entry. Block `t` of the logits holds rows `4096·t … 4096·t + 4095`
  of the array, all 256 columns: its entry `(r, j)` is the array's entry `(4096·t + r, j)`. The targets reach the region
  as a column `[524288, 1]`, the host's reshape of the argument vector, and block `t` of that column holds the same rows:
  its entry `(r, 0)` is the target of row `4096·t + r`.
-/
import proofs.«179542_j69655779607154_1_alg».proof.Proof.Gen.KernelIdeal.Frame
import proofs.«179542_j69655779607154_1_alg».proof.Proof.OrdinalLoss
import proofs.«179542_j69655779607154_1_alg».proof.Proof.LibKeepdims
import Idealize.ShloMosaic.Lib.Pipeline.Value
import Idealize.ShloMosaic.Lib.StableHlo.Run
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen Cert.OrdinalLoss
open Idealize.ShloMosaic.Pipeline (Dat)

variable {F : FTy → Type} [FloatOps F]
variable (m : (ℓ : Loc nD τ sig) → Buf (Elt F) ℓ)

/-- Both input windows step along the rows with the grid point and stay at column block zero. -/
theorem index_facts : ∀ t : Fin cfg0.N,
    (win0_0.index t 0 = t.val ∧ win0_0.index t 1 = 0) ∧ (win0_1.index t 0 = t.val ∧ win0_1.index t 1 = 0) :=
  (by decide +kernel : ∀ t : Fin grid0.N,
    (win0_0.index t 0 = t.val ∧ win0_0.index t 1 = 0) ∧ (win0_1.index t 0 = t.val ∧ win0_1.index t 1 = 0))

/-- A grid point as a tile number. -/
def tileOf (t : Fin cfg0.N) : Fin 128 := ⟨t.val, lt_of_lt_of_eq t.isLt N_0⟩

/-- Entry `(r, j)` of block `t` of the logits is the array's entry `(4096·t + r, j)`. -/
theorem logits_block (c : Dev nD) (t : Fin cfg0.N) (r : Fin 4096) (j : Fin 256) :
    (iblk m c 0 t : Vec F S4096x256 .f32) (ix2 r j)
      = m ((c : Thread nD τ).loc main_arg0) (ix2 (rowOf (tileOf t) r) j) := by
  unfold iblk
  rw [View.read_apply]
  show V m c main_arg0 _ = _
  rw [V_main_arg0 m c]
  congr 1
  funext a
  apply Fin.ext
  match a with
  | ⟨0, _⟩ =>
    show win0_0.index t 0 * 4096 + 1 * r.val = 4096 * t.val + r.val
    rw [(index_facts t).1.1]; omega
  | ⟨1, _⟩ =>
    show win0_0.index t 1 * 256 + 1 * j.val = j.val
    rw [(index_facts t).1.2]; omega

/-- The targets' column as the region finds it: the host's reshape of the argument vector. -/
theorem targets_column (c : Dev nD) :
    (V m c main_call0_v0 : S524288x1.Idx → BitVec 32)
      = shapeCast S524288x1 (m ((c : Thread nD τ).loc main_arg1)) Facts₀.shapeCasts_S524288_S524288x1 := by
  show StableHlo.after hostOps0 (fun b => m (c, b)) (Proc.devRef .tc main_call0_v0) = _
  after_results
  rfl

/-- Entry `(r, 0)` of block `t` of the targets' column is the target of row `4096·t + r`. -/
theorem targets_block (c : Dev nD) (t : Fin cfg0.N) (r : Fin 4096) :
    (iblk m c 1 t : Vec F S4096x1 .i32) (ix2 r (0 : Fin 1))
      = m ((c : Thread nD τ).loc main_arg1) (ix1 (rowOf (tileOf t) r)) := by
  unfold iblk
  rw [View.read_apply]
  show V m c main_call0_v0 _ = _
  rw [targets_column m c]
  refine Eq.trans ?_ (shapeCast_a_a1_apply _ Facts₀.shapeCasts_S524288_S524288x1 (rowOf (tileOf t) r) (0 : Fin 1))
  congr 1
  funext a
  apply Fin.ext
  match a with
  | ⟨0, _⟩ =>
    show win0_1.index t 0 * 4096 + 1 * r.val = 4096 * t.val + r.val
    rw [(index_facts t).2.1]; omega
  | ⟨1, _⟩ =>
    show win0_1.index t 1 * 1 + 1 * 0 = 0
    rw [(index_facts t).2.2]

end Cert.KernelIdeal.Blocks

end
-- ==== Proof.Accumulate.lean ====
/-
  The accumulation over the grid. After point `n` the one-entry scratch holds the sum of the first `n + 1` tiles'
  shares of the loss's sum — zero plus tile 0's share at the first point, the carried entry plus tile `n`'s share at
  each later one — and the output's block holds that entry divided by the row count. After the last point the scratch
  therefore holds the sum of all the rows' terms, and the output's block the loss.
-/
import proofs.«179542_j69655779607154_1_alg».proof.Proof.BlockSum
import proofs.«179542_j69655779607154_1_alg».proof.Proof.Cases
import proofs.«179542_j69655779607154_1_alg».proof.Proof.Blocks

noncomputable section

namespace Cert.KernelIdeal.Accumulate

open Idealize.ShloMosaic Idealize.ShloMosaic.TcCoe Idealize.SL.Sem Idealize.ShloMosaic.ValueIdx
open Cert.KernelIdeal Cert.KernelIdeal.Gen Cert.OrdinalLoss
open Cert.KernelIdeal.BlockSum Cert.KernelIdeal.Cases Cert.KernelIdeal.Blocks

variable (m : (ℓ : Loc nD τ sig) → Buf (Elt Ideal) ℓ)

/-- The targets, row by row, as the kernel is launched. -/
def targets (c : Dev nD) (i : Fin 524288) : BitVec 32 := m ((c : Thread nD τ).loc main_arg1) (ix1 i)
/-- The logits, entry by entry, as the kernel is launched. -/
def entries (c : Dev nD) (i : Fin 524288) (j : Fin 256) : EReal := m ((c : Thread nD τ).loc main_arg0) (ix2 i j)

/-- The sum of the rows' terms over the two blocks of point `t` is tile `t`'s share. -/
theorem tile_sum (c : Dev nD) (t : Fin cfg0.N) :
    ∑ r : Fin 4096, rowTerm ((iblk m c 1 t : Vec Ideal S4096x1 .i32) (ix2 r (0 : Fin 1)))
        (fun j => (iblk m c 0 t : Vec Ideal S4096x256 .f32) (ix2 r j))
      = tileTerm (targets m c) (entries m c) t.val := by
  unfold tileTerm
  rw [dif_pos (lt_of_lt_of_eq t.isLt N_0)]
  exact Finset.sum_congr rfl fun r _ =>
    congrArg₂ rowTerm (targets_block m c t r) (funext fun j => logits_block m c t r j)

/-- One point's step: the accumulating store's value over the point's blocks is the carried entry plus the tile's share. -/
theorem step (c : Dev nD) (t : Fin cfg0.N) (acc : Vec Ideal S1x1 .f32) :
    k0_pay3 (F := Ideal) (iblk m c 0 t) (iblk m c 1 t) acc (ix2 (0 : Fin 1) (0 : Fin 1))
      = acc (ix2 (0 : Fin 1) (0 : Fin 1)) + tileTerm (targets m c) (entries m c) t.val :=
  (pay3_apply _ _ acc).trans (congrArg (acc (ix2 (0 : Fin 1) (0 : Fin 1)) + ·) (tile_sum m c t))

/-- After point `n` the scratch holds the sum of the first `n + 1` tiles' shares: by induction on the point. -/
theorem scratch_after (c : Dev nD) : ∀ (n : ℕ) (h : n < cfg0.N),
    (outsAt0 m c n h).2 (ix2 (0 : Fin 1) (0 : Fin 1))
      = ∑ k ∈ Finset.range (n + 1), tileTerm (targets m c) (entries m c) k
  | 0, h =>
    (congrFun (congrArg Prod.snd (first_point m c ⟨0, h⟩ rfl)) _).trans
      ((step m c ⟨0, h⟩ _).trans (by
        rw [pay2_apply, zeroW_add, Finset.sum_range_succ, Finset.sum_range_zero, zero_add]))
  | n + 1, h => by
    have hN : cfg0.N = 128 := N_0
    have hB : ¬(⟨n + 1, h⟩ : Fin cfg0.N).val % 128 = 0 := by dsimp only; omega
    refine (congrFun (congrArg Prod.snd (later_point m c ⟨n + 1, h⟩ hB)) _).trans ?_
    refine (step m c ⟨n + 1, h⟩ _).trans ?_
    show (outsAt0 m c n _).2 (ix2 (0 : Fin 1) (0 : Fin 1)) + _ = _
    rw [scratch_after c n, Finset.sum_range_succ _ (n + 1)]

/-- After every point the output's block holds the scratch's entry divided by the row count. -/
theorem out_after (c : Dev nD) (t : Fin cfg0.N) :
    (outsAt0 m c t.val t.isLt).1 (ix2 (0 : Fin 1) (0 : Fin 1))
      = Ideal.div ((outsAt0 m c t.val t.isLt).2 (ix2 (0 : Fin 1) (0 : Fin 1))) rowsW := by
  by_cases h0 : t.val % 128 = 0
  · rw [first_point m c t h0]; exact pay1_apply _
  · rw [later_point m c t h0]; exact pay1_apply _

/-- After the last point the output's block holds the loss. -/
theorem out_last (c : Dev nD) (t : Fin cfg0.N) (ht : t.val = 127) :
    (outsAt0 m c t.val t.isLt).1 (ix2 (0 : Fin 1) (0 : Fin 1)) = loss (targets m c) (entries m c) := by
  rw [out_after m c t, scratch_after m c t.val t.isLt, ht, sum_tileTerm]
  unfold loss
  rw [zeroW_add]

end Cert.KernelIdeal.Accumulate

end
-- ==== Proof.LibIdxOne.lean ====
/-
  Indices of the smallest shapes. The indices of a vector `[n]` are its coordinates, so a sum over them is a sum over
  `Fin n` (what a reduction of a vector to a scalar sums over); and a `[1, 1]` array has exactly one index.
-/
import Idealize.ShloMosaic.Lib.ValueIdx

namespace Idealize.ShloMosaic.ValueIdx

open Idealize.ShloMosaic

/-- The indices of a vector are its coordinates. -/
def idxEquiv1 {n : Nat} : (⟨1, ![n]⟩ : Shape).Idx ≃ Fin n where
  toFun j := j 0
  invFun := ix1
  left_inv j := (eq_ix1 j).symm
  right_inv _ := rfl

/-- A sum over a vector's indices is the sum over its coordinates. -/
theorem sum_idx1 {M : Type*} [AddCommMonoid M] {n : Nat} (f : (⟨1, ![n]⟩ : Shape).Idx → M) :
    ∑ j : (⟨1, ![n]⟩ : Shape).Idx, f j = ∑ r : Fin n, f (ix1 r) :=
  Fintype.sum_equiv idxEquiv1 f (fun r => f (ix1 r)) fun j => congrArg f (eq_ix1 j)

/-- A `[1, 1]` array has one index. -/
theorem idx_1x1_unique (y : (⟨2, ![1, 1]⟩ : Shape).Idx) : y = ix2 (0 : Fin 1) (0 : Fin 1) := by
  funext a
  apply Fin.ext
  match a with
  | ⟨0, _⟩ => have := idx2_lt0 y; show (y 0).val = 0; omega
  | ⟨1, _⟩ => have := idx2_lt1 y; show (y 1).val = 0; omega

end Idealize.ShloMosaic.ValueIdx
-- ==== Proof.Final.lean ====
/-
  The kernel's result. The output window's one block is the whole one-entry array and is written back after the last
  grid point only; by then it holds the loss (the accumulation), so the array ends at the loss, and the host's reshape
  after the region hands the same entry on as the scalar result. The two argument arrays end as they were launched.
-/
import proofs.«179542_j69655779607154_1_alg».proof.Proof.Accumulate
import Idealize.ShloMosaic.Lib.Pipeline.Value
import proofs.«179542_j69655779607154_1_alg».proof.Proof.LibIdxOne
import Idealize.ShloMosaic.Lib.StableHlo.Run

noncomputable section

namespace Cert.KernelIdeal.Final

open Idealize.ShloMosaic Idealize.ShloMosaic.TcCoe Idealize.SL.Sem Idealize.ShloMosaic.ValueIdx
open Cert.KernelIdeal Cert.KernelIdeal.Gen Cert.OrdinalLoss Cert.KernelIdeal.Accumulate
open Idealize.ShloMosaic.Pipeline (Dat)

variable (m : (ℓ : Loc nD τ sig) → Buf (Elt Ideal) ℓ) (ρ : Dev nD → PrngReg)

/-- The loss of the arrays the kernel is launched with. -/
def lossOf (c : Dev nD) : EReal := loss (targets m c) (entries m c)

/-- The output array's contents after the region: its one entry at the loss. -/
def outArray (c : Dev nD) : Buf (Elt Ideal) ((c : Thread nD τ).loc main_call0_v1) := fun _ => lossOf m c

/-- The scalar result's contents: the loss. -/
def result (c : Dev nD) : Buf (Elt Ideal) ((c : Thread nD τ).loc main_v0) := fun _ => lossOf m c

/-- The output window sits on block (0, 0), of one entry, at every point. -/
theorem out_index_facts : ∀ t : Fin cfg0.N,
    win0_2.index t 0 = 0 ∧ win0_2.index t 1 = 0
      ∧ win0_2.xsize (grid0.coords t) 0 = 1 ∧ win0_2.xsize (grid0.coords t) 1 = 1 :=
  (by decide +kernel : ∀ t : Fin grid0.N,
    win0_2.index t 0 = 0 ∧ win0_2.index t 1 = 0
      ∧ win0_2.xsize (grid0.coords t) 0 = 1 ∧ win0_2.xsize (grid0.coords t) 1 = 1)

/-- After the last point the output's block is the constant block at the loss. -/
theorem out_block_last (c : Dev nD) (t : Fin cfg0.N) (ht : t.val = 127) :
    (outsAt0 m c t.val t.isLt).1 = fun _ => lossOf m c :=
  funext fun y => (congrArg _ (idx_1x1_unique y)).trans (out_last m c t ht)

/-- The one write-back, after the last point, writes the output array's contents. -/
theorem flushed_eq (c : Dev nD) (t : Fin cfg0.N) (hf : (cfg0.win 2).flush t = true) :
    (dats m 0 c).flushed 2 t = ((cfg0.win 2).blk t).view.read (Elt Ideal) (outArray m c) := by
  have hN : cfg0.N = 128 := N_0
  have ht : t.val = 127 := by have := (flush0_2 t).mp hf; have := t.isLt; omega
  show (cfg0.win 2).cut (grid0.coords t) ((dats m 0 c).after 2 t) = _
  rw [after0_2, out_block_last m c t ht]
  have hz' : (fun a => win0_2.index t a * main_call0_v1.ty.shape.size a) = fun _ => 0 := funext fun a => by
    match a with
    | ⟨0, _⟩ => show win0_2.index t 0 * 1 = 0; rw [(out_index_facts t).1]
    | ⟨1, _⟩ => show win0_2.index t 1 * 1 = 0; rw [(out_index_facts t).2.1]
  exact (Memref.read_access_unit_zero (Elt Ideal) main_call0_v1 hz' (fun a => by rw [congrFun hz' a]; simp) (outArray m c)).symm

/-- The last grid point. -/
def tLast : Fin cfg0.N := ⟨127, by rw [show cfg0.N = 128 from N_0]; decide⟩

/-- So the output array ends holding the loss: the last point's block covers it. -/
theorem final_out (c : Dev nD) : (dats m 0 c).arrAt 2 cfg0.N = outArray m c :=
  (dats m 0 c).arrAt_eq_of_cover 2 (outArray m c) (flushed_eq m c) fun i =>
    ⟨tLast, (flush0_2 tLast).mpr rfl, by
      show i ∈ ((View.whole main_call0_v1).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * 1 ≤ (i 0 : Nat) ∧ (i 0 : Nat) < win0_2.index tLast 0 * 1 + win0_2.xsize (grid0.coords tLast) 0
        rw [(out_index_facts tLast).1, (out_index_facts tLast).2.2.1]; omega
      | ⟨1, _⟩ =>
        show win0_2.index tLast 1 * 1 ≤ (i 1 : Nat) ∧ (i 1 : Nat) < win0_2.index tLast 1 * 1 + win0_2.xsize (grid0.coords tLast) 1
        rw [(out_index_facts tLast).2.1, (out_index_facts tLast).2.2.2]; omega⟩

/-- The host's reshape after the region makes the scalar result of the output array's entry: the loss. -/
theorem tail_eq (c : Dev nD) :
    Pipeline.afterTail₀ cfgs (dats m) 0 (V0 m) [hostOps1] c main_v0 = result m c := by
  unfold Pipeline.afterTail₀
  show StableHlo.after hostOps1 _ (Proc.devRef .tc main_v0) = _
  after_results
  rw [show Pipeline.withArrays (cfgs 0).spec c (V0 m c) (fun w => (dats m 0 c).arrAt w (cfgs 0).N)
        (Proc.devRef .tc main_call0_v1) = outArray m c from
      (Pipeline.withArrays_arr spec0 launch0.win.arr_inj c _ _ 2).trans (final_out m c)]
  rfl

/-- The kernel's run, read: the scalar result at the loss, both arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Final

end
-- ==== Proof.RefLoss.lean ====
/-
  The reference computes the loss. Read one operation at a time, its result is the quotient by the row count of zero
  plus the sum over the rows of: zero plus the lane sum of the clamped entries selected where the column is below the
  row's target, plus — selected where the target is below 255 — zero plus the lane sum of the clamped negated entries
  selected where the column is at or above the target. That is the specification's loss, term for term.
-/
import proofs.«179542_j69655779607154_1_alg».proof.Proof.Gen.ReferenceIdeal.Read
import proofs.«179542_j69655779607154_1_alg».proof.Proof.OrdinalLoss
import Idealize.ShloMosaic.Lib.ValueIdx
import proofs.«179542_j69655779607154_1_alg».proof.Proof.LibIdxOne

noncomputable section

namespace Cert.ReferenceIdeal.RefValue

open Idealize.ShloMosaic Idealize.ShloMosaic.ValueIdx Cert.ReferenceIdeal Cert.ReferenceIdeal.Read Cert.OrdinalLoss

variable (x0 : (⟨S524288x256, .f32⟩ : BufTy).Contents (Elt Ideal)) (x1 : (⟨S524288, .i32⟩ : BufTy).Contents (Elt Ideal))

/-- Entry `(r, k)` of the targets spread along the lanes is read at row `r` of the argument vector. -/
theorem below_target_idx (r : Fin 524288) (k : Fin 256) : idx_main_v1 (idx_main_v4 (ix2 r k)) = ix1 r :=
  funext fun a => Fin.ext (by match a with | ⟨0, _⟩ => rfl)
theorem above_target_idx (r : Fin 524288) (k : Fin 256) : idx_main_v1 (idx_main_v8 (ix2 r k)) = ix1 r :=
  funext fun a => Fin.ext (by match a with | ⟨0, _⟩ => rfl)

/-- Lane `k` of row `r`, as each lane sum indexes it. -/
theorem below_lane_idx (r : Fin 524288) (k : Fin 256) : idx_main_v13 (ix1 r) k = ix2 r k :=
  funext fun a => Fin.ext (by match a with | ⟨0, _⟩ => rfl | ⟨1, _⟩ => rfl)
theorem above_lane_idx (r : Fin 524288) (k : Fin 256) : idx_main_v18 (ix1 r) k = ix2 r k :=
  funext fun a => Fin.ext (by match a with | ⟨0, _⟩ => rfl | ⟨1, _⟩ => rfl)

/-- The selected clamped entry below the target, at `(r, k)`. -/
theorem below_eq (r : Fin 524288) (k : Fin 256) :
    val_main_v12 (F := Ideal) x0 x1 (ix2 r k) = below (x1 (ix1 r)) k (x0 (ix2 r k)) := by
  rw [val_main_v12_apply, val_main_v5_apply, val_main_v3_apply, val_main_v2_apply, val_main_v0_apply, val_main_v4_apply,
    val_main_v1_apply, val_main_v11_apply, val_main_v10_apply, val_main_cst_apply, val_main_call0_v1_apply,
    val_main_call0_v0_apply, val_main_cst_0_apply, below_target_idx]
  rfl

/-- The selected clamped negated entry at or above the target, at `(r, k)`. -/
theorem atOrAbove_eq (r : Fin 524288) (k : Fin 256) :
    val_main_v17 (F := Ideal) x0 x1 (ix2 r k) = atOrAbove (x1 (ix1 r)) k (x0 (ix2 r k)) := by
  rw [val_main_v17_apply, val_main_v9_apply, val_main_v7_apply, val_main_v6_apply, val_main_v0_apply, val_main_v8_apply,
    val_main_v1_apply, val_main_v16_apply, val_main_v14_apply, val_main_v15_apply, val_main_cst_2_apply,
    val_main_call1_v1_apply, val_main_call1_v0_apply, val_main_cst_3_apply, above_target_idx]
  rfl

/-- Row `r`'s term. -/
theorem row_eq (r : Fin 524288) :
    val_main_v22 (F := Ideal) x0 x1 (ix1 r) = rowTerm (x1 (ix1 r)) (fun j => x0 (ix2 r j)) := by
  rw [val_main_v22_apply, val_main_v13_apply, val_main_v21_apply, val_main_v20_apply, val_main_v19_apply,
    val_main_c_apply, val_main_v18_apply, val_main_call2_v1_apply, val_main_call2_v0_apply, val_main_cst_5_apply,
    val_main_cst_1_apply, val_main_cst_4_apply]
  simp only [below_lane_idx, above_lane_idx, below_eq, atOrAbove_eq]
  rfl

/-- The reference's result is the loss of its two arguments. -/
theorem result_eq (i : S_.Idx) :
    val_main_v24 (F := Ideal) x0 x1 i = loss (fun r => x1 (ix1 r)) (fun r j => x0 (ix2 r j)) := by
  rw [val_main_v24_apply, val_main_v23_apply, val_main_cst_6_apply, val_main_cst_7_apply, sum_idx1]
  simp only [row_eq]
  rfl

end Cert.ReferenceIdeal.RefValue

end
-- ==== Proof.lean ====
/-
  The ordinal-regression loss, a tiled kernel against its plain reference, over the extended reals.

  For logits `x` of 524288 rows by 256 columns and one integer target `t i` per row, both programs compute
    ( 0 + Σ_i [ (0 + Σ_j [j <ₛ t i] · max (x i j) (-10)) + [t i <ₛ 255] · (0 + Σ_j [j ≥ₛ t i] · max (-(x i j)) (-10)) ] ) / 524288.
  The reference computes it as written. The kernel walks the rows in 128 tiles of 4096: at each grid point it adds the
  tile's rows' terms into a one-entry scratch (zeroed at the first point) and overwrites the one-entry output with the
  scratch divided by 524288; the output is written back after the last point. It spells "j ≥ₛ t" as the negation of
  "j <ₛ t" and "-x" as "0 - x".

  The two agree at every input, finite or not: the negated comparison is the other comparison at every pair of words,
  `0 - x = -x` at every extended real, and the tiled accumulation is the sum over all rows because addition of extended
  reals is commutative and associative. So the precondition is used by no step of the value argument.

  The modules: OrdinalLoss (the loss and these three laws), BlockSum (what one point adds), Cases (the two control
  cases' stores as values), Blocks (what the input windows' blocks hold), Accumulate (the induction over the points),
  Final (the written-back array, the host's reshape, the kernel's run), RefLoss (the reference's result is the loss).
  The kernel's frames and the reference's run are the generated ones.
-/
import proofs.«179542_j69655779607154_1_alg».proof.Defs
import proofs.«179542_j69655779607154_1_alg».proof.Proof.Gen.Kernel
import proofs.«179542_j69655779607154_1_alg».proof.Proof.Gen.Kernel.Frame
import proofs.«179542_j69655779607154_1_alg».proof.Proof.Gen.KernelIdeal
import proofs.«179542_j69655779607154_1_alg».proof.Proof.Gen.KernelIdeal.Frame
import proofs.«179542_j69655779607154_1_alg».proof.Proof.Gen.ReferenceIdeal
import proofs.«179542_j69655779607154_1_alg».proof.Proof.Gen.ReferenceIdeal.Run
import proofs.«179542_j69655779607154_1_alg».proof.Proof.Gen.ReferenceIdeal.Read
import proofs.«179542_j69655779607154_1_alg».proof.Proof.Gen.Pre_finite_inputs
import proofs.«179542_j69655779607154_1_alg».proof.Proof.Final
import proofs.«179542_j69655779607154_1_alg».proof.Proof.RefLoss
import Idealize.ShloMosaic.Adequacy
import Idealize.ShloMosaic.Init

noncomputable section

namespace Cert.Proof

open Idealize.ShloMosaic Idealize.SL.Sem

/-- The kernel as printed runs to the end, nothing faulting, its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From memories agreeing on the arguments both programs end at the loss of those arguments: the kernel by the
    accumulation over its grid, the reference operation by operation. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v24_eq (F := Ideal) _ _).trans ?_
  funext i
  rw [Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
